-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S1x512x1024 : Shape := ⟨3, ![1, 512, 1024]⟩
abbrev S2048x1024 : Shape := ⟨2, ![2048, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S2048x1024, .bf16⟩
  | .local _ .vmem, ⟨11, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x512x1024 : 0 < S1x512x1024.numel
  shapeCasts_S1x512x1024_S512x1024 : S1x512x1024.ShapeCasts S512x1024
  broadcasts_S1x1024_S512x1024 : S1x1024.Broadcasts S512x1024
  reduces_S512x2048_S512 : S512x2048.Reduces [1] S512
  shapeCasts_S512_S512x1 : S512.ShapeCasts S512x1
  broadcasts_S512x1_S512x2048 : S512x1.Broadcasts S512x2048
  inb_S1x512x1024_S1x512x1024_0_0_0 : ∀ a, (![0, 0, 0] : Fin 3 → Nat) a + S1x512x1024.size a ≤ S1x512x1024.size a
  shapeCasts_S512x1024_S1x512x1024 : S512x1024.ShapeCasts S1x512x1024
  dot_S2048x1024_S1024x1024_S2048x1024_1_1_0_0_n_n_wf : DotDims.WF S2048x1024 S1024x1024 S2048x1024 [1] [1] [0] [0] [] []
  dot_S512x1024_S1024x1024_S512x1024_1_1_0_0_n_n_wf : DotDims.WF S512x1024 S1024x1024 S512x1024 [1] [1] [0] [0] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .bf16 = 32 ∨ (Rect.block (s := S4x2048x1024) S1x2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .f32 = 32 ∨ (Rect.block (s := S4x2048x1024) S1x512x1024.size (cc0_transform_7 i) (hinb0_7 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.AttnRow.lean ====
/-
  One query row of scaled dot-product attention over the extended reals, written in two orders, and the
  whole-array specification built from it.

  A row is given by its query features `q e`, the keys `K k e` and the values `V k o`.  The scores are
  `s k = (∑ e, q e * K k e) / 32`, the weights are `exp (s k - max s) / ∑ k', exp (s k' - max s)`, and the
  result at `o` is the weighted sum of `V k o`.

  * `kernelRow` scales the query before the contraction (`∑ e, (q e * c) * K k e`) and multiplies each
    exponential by the reciprocal `1 / l` of the normaliser.
  * `refRow` scales the contracted score (`(∑ e, q e * K k e) * c`), takes the maximum once more against
    `-∞`, adds the exponentials to `0`, and divides each exponential by the normaliser.

  They agree when every query feature and every key entry is a real number and there is at least one key
  (`kernelRow_eq_refRow`).  Two laws carry the proof.  Multiplication by a nonnegative real constant is
  additive on the extended reals, so it commutes with a finite sum; this needs no finiteness.  Multiplying
  by the reciprocal is dividing only off a zero normaliser (`0 * (1 / 0) = 0` while `0 / 0` is junk), and
  the normaliser is a sum of exponentials of real numbers, hence a positive real: this is where finiteness
  of the inputs is used.
-/
import Mathlib
import Idealize.ShloMosaic.PureOps.Ideal
import Idealize.ShloMosaic.PureOps.Ideal.Laws
import Idealize.ShloMosaic.Lib.ValueIdx

open scoped BigOperators

noncomputable section

namespace Attn

open Idealize.ShloMosaic Idealize.ShloMosaic.ValueIdx

/-! ## The three float words the programs spell, as extended reals -/

/-- `0.03125` denotes the real `1 / 32`. -/
theorem scale_eq : Ideal.ofBits .f32 0x3D000000#32 = (((1 : ℝ) / 32 : ℝ) : EReal) := by
  simp [Ideal.ofBits, Ideal.ieee, -EReal.coe_mul]; norm_num

/-- `1.0` denotes `1`. -/
theorem one_eq : Ideal.ofBits .f32 0x3F800000#32 = 1 := by
  simp [Ideal.ofBits, Ideal.ieee, -EReal.coe_mul]; norm_num

/-- The pattern of `-∞` denotes the bottom element. -/
theorem negInf_eq : Ideal.ofBits .f32 0xFF800000#32 = ⊥ := by
  simp [Ideal.ofBits, Ideal.ieee]

/-! ## Real entries -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, at least one, taken from `-∞`, is a real. -/
theorem isReal_fold_max {N : ℕ} (hN : 0 < N) (f : Fin N → EReal) (hf : ∀ k, IsReal (f k)) :
    IsReal ((Finset.univ : Finset (Fin N)).fold max ⊥ f) := by
  have h1 : (Finset.univ : Finset (Fin N)).fold max ⊥ f ≠ ⊥ := by
    obtain ⟨r, hr⟩ := hf ⟨0, hN⟩
    have hle : f ⟨0, hN⟩ ≤ (Finset.univ : Finset (Fin N)).fold max ⊥ f :=
      (Finset.le_fold_max _).mpr (Or.inr ⟨_, Finset.mem_univ _, le_rfl⟩)
    intro h
    rw [h, hr] at hle
    exact absurd (le_bot_iff.mp hle) (EReal.coe_ne_bot r)
  have h2 : (Finset.univ : Finset (Fin N)).fold max ⊥ f ≠ ⊤ := by
    have hlt : (Finset.univ : Finset (Fin N)).fold max ⊥ f < ⊤ :=
      (Finset.fold_max_lt _).mpr ⟨bot_lt_top, fun k _ => by obtain ⟨r, hr⟩ := hf k; rw [hr]; exact EReal.coe_lt_top r⟩
    exact hlt.ne
  exact ⟨_, (EReal.coe_toReal h2 h1).symm⟩

/-! ## The two laws -/

/-- A finite sum of extended reals times a nonnegative real constant: the constant goes inside. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- Off a zero divisor, multiplying by the reciprocal is dividing. -/
theorem mul_div_one {p l : EReal} (hl : l ≠ 0) : p * Ideal.div 1 l = Ideal.div p l := by
  unfold Ideal.div
  rw [if_neg hl, if_neg hl, one_mul]

/-! ## One row, in the two orders -/

section Row

variable {E N O : ℕ}

/-- The score of key `k` with the query scaled before the contraction. -/
def kScore (q : Fin E → EReal) (K : Fin N → Fin E → EReal) (k : Fin N) : EReal :=
  ∑ e, (q e * Ideal.ofBits .f32 0x3D000000#32) * K k e

/-- The score of key `k` with the contraction scaled afterwards. -/
def rScore (q : Fin E → EReal) (K : Fin N → Fin E → EReal) (k : Fin N) : EReal :=
  (∑ e, q e * K k e) * Ideal.ofBits .f32 0x3D000000#32

/-- The softmax-weighted sum of the values, each exponential multiplied by the reciprocal of the normaliser. -/
def softmaxMulRecip (s : Fin N → EReal) (V : Fin N → Fin O → EReal) (o : Fin O) : EReal :=
  ∑ k, (Ideal.exp (s k - (Finset.univ : Finset (Fin N)).fold max (Ideal.ofBits .f32 0xFF800000#32) s)
      * Ideal.div (Ideal.ofBits .f32 0x3F800000#32)
          (∑ k', Ideal.exp (s k' - (Finset.univ : Finset (Fin N)).fold max (Ideal.ofBits .f32 0xFF800000#32) s)))
    * V k o

/-- The softmax-weighted sum of the values, each exponential divided by the normaliser; the maximum is taken once
    more against `-∞` and the normaliser is accumulated from `0`. -/
def softmaxDiv (s : Fin N → EReal) (V : Fin N → Fin O → EReal) (o : Fin O) : EReal :=
  ∑ k, Ideal.div
      (Ideal.exp (s k - max (Ideal.ofBits .f32 0xFF800000#32)
        ((Finset.univ : Finset (Fin N)).fold max (Ideal.ofBits .f32 0xFF800000#32) s)))
      (Ideal.ofBits .f32 0x00000000#32 + ∑ k', Ideal.exp (s k' - max (Ideal.ofBits .f32 0xFF800000#32)
        ((Finset.univ : Finset (Fin N)).fold max (Ideal.ofBits .f32 0xFF800000#32) s)))
    * V k o

/-- The row as the kernel computes it. -/
def kernelRow (q : Fin E → EReal) (K : Fin N → Fin E → EReal) (V : Fin N → Fin O → EReal) (o : Fin O) : EReal :=
  softmaxMulRecip (kScore q K) V o

/-- The row as the reference computes it. -/
def refRow (q : Fin E → EReal) (K : Fin N → Fin E → EReal) (V : Fin N → Fin O → EReal) (o : Fin O) : EReal :=
  softmaxDiv (rScore q K) V o

/-- Scaling the query before the contraction is scaling the contracted score: `1 / 32` is a nonnegative real. -/
theorem kScore_eq_rScore (q : Fin E → EReal) (K : Fin N → Fin E → EReal) (k : Fin N) :
    kScore q K k = rScore q K k := by
  unfold kScore rScore
  rw [scale_eq, sum_mul_coe_of_nonneg _ _ (by norm_num)]
  exact Finset.sum_congr rfl fun e _ => mul_right_comm _ _ _

/-- With real scores and at least one key the two softmax forms agree. -/
theorem softmaxMulRecip_eq_softmaxDiv (hN : 0 < N) (s : Fin N → EReal) (hs : ∀ k, IsReal (s k))
    (V : Fin N → Fin O → EReal) (o : Fin O) : softmaxMulRecip s V o = softmaxDiv s V o := by
  unfold softmaxMulRecip softmaxDiv
  rw [negInf_eq, one_eq, Ideal.ofBits_zero_f32, zero_add, max_eq_right bot_le]
  obtain ⟨mx, hmx⟩ := isReal_fold_max hN s hs
  rw [hmx]
  have hterm : ∀ k, ∃ r : ℝ, 0 < r ∧ Ideal.exp (s k - (mx : EReal)) = (r : EReal) := fun k => by
    obtain ⟨a, ha⟩ := hs k
    exact ⟨Real.exp (a - mx), Real.exp_pos _, by rw [ha, ← EReal.coe_sub]; rfl⟩
  choose r hr0 hr using hterm
  have hl : (∑ k', Ideal.exp (s k' - (mx : EReal))) ≠ 0 := by
    rw [Finset.sum_congr rfl fun k _ => hr k, ← coe_sum]
    have hpos : 0 < ∑ k, r k :=
      Finset.sum_pos (fun k _ => hr0 k) ⟨⟨0, hN⟩, Finset.mem_univ _⟩
    exact EReal.coe_ne_zero.mpr hpos.ne'
  exact Finset.sum_congr rfl fun k _ => congrArg (· * V k o) (mul_div_one hl)

/-- The kernel's row is the reference's row, when the query features and the key entries are reals. -/
theorem kernelRow_eq_refRow (hN : 0 < N) (q : Fin E → EReal) (K : Fin N → Fin E → EReal)
    (hq : ∀ e, IsReal (q e)) (hK : ∀ k e, IsReal (K k e)) (V : Fin N → Fin O → EReal) (o : Fin O) :
    kernelRow q K V o = refRow q K V o := by
  unfold kernelRow refRow
  rw [show kScore q K = rScore q K from funext (kScore_eq_rScore q K)]
  refine softmaxMulRecip_eq_softmaxDiv hN _ (fun k => ?_) V o
  exact (IsReal.sum _ _ fun e _ => (hq e).mul (hK k e)).mul ⟨_, scale_eq⟩

end Row

/-! ## The whole array -/

/-- The token array `[4, 2048, 1024]`, a weight matrix `[1024, 1024]` and a bias `[1024]`. -/
abbrev SX : Shape := ⟨3, ![4, 2048, 1024]⟩
abbrev SW : Shape := ⟨2, ![1024, 1024]⟩
abbrev SB : Shape := ⟨1, ![1024]⟩

/-- Feature `e` of the linear projection `x W^T + bias` of token `(b, r)`. -/
def proj (X : SX.Idx → EReal) (W : SW.Idx → EReal) (B : SB.Idx → EReal) (b : Fin 4) (r : Fin 2048) (e : Fin 1024) : EReal :=
  (∑ d : Fin 1024, X (ix3 b r d) * W (ix2 e d)) + B (ix1 e)

theorem isReal_proj {X : SX.Idx → EReal} {W : SW.Idx → EReal} {B : SB.Idx → EReal} (hX : ∀ i, IsReal (X i))
    (hW : ∀ i, IsReal (W i)) (hB : ∀ i, IsReal (B i)) (b : Fin 4) (r : Fin 2048) (e : Fin 1024) :
    IsReal (proj X W B b r e) :=
  (IsReal.sum _ _ fun d _ => (hX _).mul (hW _)).add (hB _)

/-- The attention output at `(b, r, o)`: the row of token `(b, r)`'s query against batch `b`'s keys and values,
    in the reference's order. -/
def attn (X : SX.Idx → EReal) (Wq : SW.Idx → EReal) (Bq : SB.Idx → EReal) (Wk : SW.Idx → EReal) (Bk : SB.Idx → EReal)
    (Wv : SW.Idx → EReal) (Bv : SB.Idx → EReal) (b : Fin 4) (r : Fin 2048) (o : Fin 1024) : EReal :=
  refRow (fun e => proj X Wq Bq b r e) (fun k e => proj X Wk Bk b k e) (fun k o' => proj X Wv Bv b k o') o

/-- The result array as one function of the seven argument arrays. -/
def G (X : SX.Idx → EReal) (Wq : SW.Idx → EReal) (Bq : SB.Idx → EReal) (Wk : SW.Idx → EReal) (Bk : SB.Idx → EReal)
    (Wv : SW.Idx → EReal) (Bv : SB.Idx → EReal) : SX.Idx → EReal :=
  fun i => attn X Wq Bq Wk Bk Wv Bv (i 0) (i 1) (i 2)

theorem G_ix3 (X : SX.Idx → EReal) (Wq : SW.Idx → EReal) (Bq : SB.Idx → EReal) (Wk : SW.Idx → EReal) (Bk : SB.Idx → EReal)
    (Wv : SW.Idx → EReal) (Bv : SB.Idx → EReal) (b : Fin 4) (r : Fin 2048) (o : Fin 1024) :
    G X Wq Bq Wk Bk Wv Bv (ix3 b r o) = attn X Wq Bq Wk Bk Wv Bv b r o := rfl

end Attn

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.LibRowMax.lean ====
/-
  A row's maximum read at an index given by coordinates, over the extended reals, at any extents: the lane maximum of a
  matrix `[a, b]` along its second axis, and the maximum of an array `[a, b, c]` along its last axis taken by a
  one-operand reduction from an initial value, are each the fold of `max` over the reduced axis's coordinates of the
  row's entries — the inserted index is `(r, k)`, respectively `(p, r, k)`.
-/
import Idealize.ShloMosaic.Lib.ValueIdx
import Idealize.ShloMosaic.PureOps.Ideal.Laws

open scoped BigOperators

namespace Cert.Lib.RowMax

open Idealize.ShloMosaic Idealize.ShloMosaic.ValueIdx

/-- Over the extended reals, the lane maximum of an `[a, b]` array along its second axis is, at row `r`, the fold of
    `max` from the accumulator's value over that row's `b` entries. -/
theorem multiReduction_maximumf_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (r : Fin a) :
    multiReduction .maximumf [(1 : Fin 2)] ⟨1, ![a]⟩ src acc h hφ hacc (ix1 r)
      = (Finset.univ : Finset (Fin b)).fold max (FloatOps.ofBits φ acc) (fun k => src (ix2 r k)) := by
  rw [Ideal.multiReduction_maximumf_single]
  exact congrArg ((Finset.univ : Finset (Fin b)).fold max (FloatOps.ofBits φ acc)) (funext fun k => congrArg src (funext fun c => Fin.ext (by
    match c with | ⟨0, _⟩ => rfl | ⟨1, _⟩ => rfl)))

/-- Over the extended reals, a one-operand reduction by `max` of an `[a, b, c]` array along its last axis is, at
    `(p, r)`, the fold of `max` from the initial value over the `c` entries of that row. -/
theorem hostReduce_maximumf_abc_ab_apply {φ : FTy} {a b c : ℕ} {u : Shape} (x : (⟨3, ![a, b, c]⟩ : Shape).Idx → Ideal φ)
    (init : u.Idx → Ideal φ) (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (r : Fin b) :
    Host.reduce (FloatOps.maximumf (F := Ideal) (φ := φ)) x init h' hu (ix2 p r)
      = (Finset.univ : Finset (Fin c)).fold max (init (Shape.Idx.first hu)) (fun k => x (ix3 p r k)) := by
  rw [Host.reduce_eq_fold_single (FloatOps.maximumf (F := Ideal) (φ := φ)) x init h' h hu (ix2 p r)]
  exact congrArg ((Finset.univ : Finset (Fin c)).fold max (init (Shape.Idx.first hu))) (funext fun k => congrArg x (funext fun d => Fin.ext (by
    match d with | ⟨0, _⟩ => rfl | ⟨1, _⟩ => rfl | ⟨2, _⟩ => rfl)))

end Cert.Lib.RowMax
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.LibMatmulT.lean ====
/-
  A matrix product with the right operand contracted on its LAST axis, read at an entry, over the extended reals, at any
  extents.

  The product of an `[M, K]` matrix with an `[N, K]` matrix (both contracted on their second axis, no batch axis:
  `L · Rᵀ`) accumulated into the zero matrix is, at `(p, e)`, the sum over the contracted coordinate `f` of the left
  operand at `(p, f)` times the right operand at `(e, f)`: the operand indices the product names at an output index and
  a contraction index are `(p, f)` and `(e, f)`, and the one-axis contraction index is its one coordinate.
-/
import Idealize.ShloMosaic.Lib.ValueIdx
import Idealize.ShloMosaic.PureOps.Ideal.Laws

open scoped BigOperators

noncomputable section

namespace Cert.Lib.MatmulT

open Idealize.ShloMosaic Idealize.ShloMosaic.ValueIdx

variable {M K N : ℕ}

theorem trhs_lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem trhs_lhs1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem trhs_rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem trhs_rhs1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The sum over the product's contraction index, re-indexed by the contracted coordinate. -/
theorem trhs_sum {φ₁ φ₂ : FTy} (L : FVec Ideal ⟨2, ![M, K]⟩ φ₁) (R : FVec Ideal ⟨2, ![N, K]⟩ φ₂) (p : Fin M) (e : Fin N) :
    (∑ k : (DotDims.transposedRhs M K N).contr.Idx,
        L ((DotDims.transposedRhs M K N).lhsIdx (ix2 p e) k) * R ((DotDims.transposedRhs M K N).rhsIdx (ix2 p e) k))
      = ∑ f : Fin K, L (ix2 p f) * R (ix2 e f) := by
  rw [← Equiv.sum_comp (contrEquiv1 (DotDims.transposedRhs M K N) K rfl rfl).symm]
  refine Finset.sum_congr rfl fun f _ => ?_
  have hk := contrEquiv1_symm_val (DotDims.transposedRhs M K N) K rfl rfl f
  have el : (DotDims.transposedRhs M K N).lhsIdx (ix2 p e) ((contrEquiv1 (DotDims.transposedRhs M K N) K rfl rfl).symm f) = ix2 p f :=
    funext fun a => Fin.ext (by
      match a with
      | ⟨0, _⟩ => exact trhs_lhs0 _ _
      | ⟨1, _⟩ => exact (trhs_lhs1 _ _).trans hk)
  have er : (DotDims.transposedRhs M K N).rhsIdx (ix2 p e) ((contrEquiv1 (DotDims.transposedRhs M K N) K rfl rfl).symm f) = ix2 e f :=
    funext fun a => Fin.ext (by
      match a with
      | ⟨0, _⟩ => exact trhs_rhs0 _ _
      | ⟨1, _⟩ => exact (trhs_rhs1 _ _).trans hk)
  rw [el, er]

/-- An `[M, K]` by `[N, K]` product (right operand contracted on its last axis) into the zero accumulator, at `(p, e)`. -/
theorem matmul_trhs_zero_apply {φ₁ φ₂ : FTy} (prec : Option ContractPrecision) (L : FVec Ideal ⟨2, ![M, K]⟩ φ₁)
    (R : FVec Ideal ⟨2, ![N, K]⟩ φ₂) (p : Fin M) (e : Fin N) :
    matmul (DotDims.transposedRhs M K N) prec L R (constant ⟨2, ![M, N]⟩ .f32 0x00000000#32) (ix2 p e)
      = ∑ f : Fin K, L (ix2 p f) * R (ix2 e f) :=
  (Ideal.matmul_constant_zero_apply (DotDims.transposedRhs M K N) prec L R (ix2 p e)).trans (trhs_sum L R p e)

end Cert.Lib.MatmulT

end
-- ==== Proof.Payloads.lean ====
/-
  The kernel body's arithmetic read at coordinates, over the extended reals.

  The body has three pure values.  The key scratch and the value scratch are each a linear projection of the batch's
  token block: entry `(k, e)` is `∑ d, x (0, k, d) * W (e, d) + bias (0, e)` (`proj_apply`, stated once for the common
  shape of the two payloads).  The output tile is, at `(r, o)`, one attention row in the kernel's order
  (`Attn.kernelRow`): the query features are the projection of the tile's token `r`, the keys and values are the two
  scratch buffers' entries (`tile_apply`).  Changes of float format are the identity here; a cast that only adds or
  drops a unit axis keeps the row-major position.
-/
import proofs.«114856_j16363825398359_2_alg».proof.Proof.Gen.KernelIdeal.Skeleton
import proofs.«114856_j16363825398359_2_alg».proof.Proof.AttnRow
import proofs.«114856_j16363825398359_2_alg».proof.Proof.LibColumns
import proofs.«114856_j16363825398359_2_alg».proof.Proof.LibRowMax
import proofs.«114856_j16363825398359_2_alg».proof.Proof.LibMatmul
import proofs.«114856_j16363825398359_2_alg».proof.Proof.LibMatmulT
import Idealize.ShloMosaic.Lib.Pipeline.Value
import Idealize.ShloMosaic.Lib.ValueLayout

open scoped BigOperators

noncomputable section

namespace Cert.KernelIdeal.Pay

open Cert.KernelIdeal Cert.KernelIdeal.Gen Idealize.ShloMosaic Idealize.ShloMosaic.ValueIdx

/-! ## The printed operations at their literal shapes -/

/-- The exponential of a vector, entry by entry. -/
theorem exp_apply {s : Shape} (a : FVec Ideal s .f32) (i : s.Idx) : exp a i = Ideal.exp (a i) := rfl

/-- A product with the right operand contracted on its last axis, into zero: `[2048,1024] · [1024,1024]ᵀ`. -/
theorem mm_proj_big (L : FVec Ideal S2048x1024 .bf16) (R : FVec Ideal S1024x1024 .bf16) (p : Fin 2048) (e : Fin 1024) :
    matmul dot_S2048x1024_S1024x1024_S2048x1024_1_1_0_0_n_n none L R (constant S2048x1024 .f32 0x00000000#32) (ix2 p e)
      = ∑ d : Fin 1024, L (ix2 p d) * R (ix2 e d) :=
  Cert.Lib.MatmulT.matmul_trhs_zero_apply (M := 2048) (K := 1024) (N := 1024) none L R p e

/-- `[512,1024] · [1024,1024]ᵀ`. -/
theorem mm_proj_tile (L : FVec Ideal S512x1024 .bf16) (R : FVec Ideal S1024x1024 .bf16) (p : Fin 512) (e : Fin 1024) :
    matmul dot_S512x1024_S1024x1024_S512x1024_1_1_0_0_n_n none L R (constant S512x1024 .f32 0x00000000#32) (ix2 p e)
      = ∑ d : Fin 1024, L (ix2 p d) * R (ix2 e d) :=
  Cert.Lib.MatmulT.matmul_trhs_zero_apply (M := 512) (K := 1024) (N := 1024) none L R p e

/-- The scores `[512,1024] · [2048,1024]ᵀ`. -/
theorem mm_scores (L : FVec Ideal S512x1024 .bf16) (R : FVec Ideal S2048x1024 .bf16) (p : Fin 512) (k : Fin 2048) :
    matmul dot_S512x1024_S2048x1024_S512x2048_1_1_0_0_n_n none L R (constant S512x2048 .f32 0x00000000#32) (ix2 p k)
      = ∑ e : Fin 1024, L (ix2 p e) * R (ix2 k e) :=
  Cert.Lib.MatmulT.matmul_trhs_zero_apply (M := 512) (K := 1024) (N := 2048) none L R p k

/-- The plain product of the weights with the values, `[512,2048] · [2048,1024]`. -/
theorem mm_out (L : FVec Ideal S512x2048 .bf16) (R : FVec Ideal S2048x1024 .bf16) (p : Fin 512) (o : Fin 1024) :
    matmul dot_S512x2048_S2048x1024_S512x1024_1_0_0_1_n_n none L R (constant S512x1024 .f32 0x00000000#32) (ix2 p o)
      = ∑ k : Fin 2048, L (ix2 p k) * R (ix2 k o) :=
  Cert.Lib.Matmul.matmul_plain_zero_apply (M := 512) (K := 2048) (N := 1024) none L R p o

/-- The lane maximum of the scores along the keys. -/
theorem rowmax_apply (s : FVec Ideal S512x2048 .f32) (r : Fin 512) :
    multiReduction .maximumf [1] S512 s 0xFF800000#32 reduces_S512x2048_S512 (.inl rfl) rfl (ix1 r)
      = (Finset.univ : Finset (Fin 2048)).fold max (Ideal.ofBits .f32 0xFF800000#32) (fun k => s (ix2 r k)) :=
  Cert.Lib.RowMax.multiReduction_maximumf_ab_a_apply (a := 512) (b := 2048) s _ _ _ _ r

/-- The lane sum of the exponentials along the keys. -/
theorem rowsum_apply (s : FVec Ideal S512x2048 .f32) (r : Fin 512) :
    multiReduction .add [1] S512 s 0x00000000#32 reduces_S512x2048_S512 (.inl rfl) rfl (ix1 r)
      = ∑ k : Fin 2048, s (ix2 r k) :=
  Cert.Lib.Columns.multiReduction_add_ab_a_apply (a := 512) (b := 2048) s _ _ _ _ r

/-- A per-row vector made a column. -/
theorem col_apply (v : FVec Ideal S512 .f32) (r : Fin 512) (u : Fin 1) :
    shapeCast S512x1 v shapeCasts_S512_S512x1 (ix2 r u) = v (ix1 r) :=
  Cert.Lib.Columns.shapeCast_a_a1_apply (a := 512) v _ r u

/-- A column spread over the keys. -/
theorem colbc_apply (v : FVec Ideal S512x1 .f32) (r : Fin 512) (k : Fin 2048) :
    broadcastTo S512x2048 v broadcasts_S512x1_S512x2048 (ix2 r k) = v (ix2 r (0 : Fin 1)) :=
  Cert.Lib.Columns.broadcastTo_a1_ab_apply (a := 512) (b := 2048) v _ r k

/-- A bias row spread over the tokens of a batch, and of a tile. -/
theorem biasbc_big (v : FVec Ideal S1x1024 .f32) (p : Fin 2048) (e : Fin 1024) :
    broadcastTo S2048x1024 v broadcasts_S1x1024_S2048x1024 (ix2 p e) = v (ix2 (0 : Fin 1) e) :=
  broadcastTo_1b_ab_apply (a := 2048) (b := 1024) v _ p e

theorem biasbc_tile (v : FVec Ideal S1x1024 .f32) (p : Fin 512) (e : Fin 1024) :
    broadcastTo S512x1024 v broadcasts_S1x1024_S512x1024 (ix2 p e) = v (ix2 (0 : Fin 1) e) :=
  broadcastTo_1b_ab_apply (a := 512) (b := 1024) v _ p e

/-- The batch's token block and the tile's token block with their unit batch axis dropped. -/
theorem squeeze_big (v : FVec Ideal S1x2048x1024 .bf16) (p : Fin 2048) (d : Fin 1024) :
    shapeCast S2048x1024 v shapeCasts_S1x2048x1024_S2048x1024 (ix2 p d) = v (ix3 (0 : Fin 1) p d) :=
  shapeCast_1ab_ab_apply (a := 2048) (b := 1024) v _ p d

theorem squeeze_tile (v : FVec Ideal S1x512x1024 .bf16) (p : Fin 512) (d : Fin 1024) :
    shapeCast S512x1024 v shapeCasts_S1x512x1024_S512x1024 (ix2 p d) = v (ix3 (0 : Fin 1) p d) :=
  shapeCast_1ab_ab_apply (a := 512) (b := 1024) v _ p d

/-- The output tile with a unit batch axis put back. -/
theorem unsqueeze_tile (v : FVec Ideal S512x1024 .f32) (u : Fin 1) (p : Fin 512) (o : Fin 1024) :
    shapeCast S1x512x1024 v shapeCasts_S512x1024_S1x512x1024 (ix3 u p o) = v (ix2 p o) :=
  shapeCast_ab_1ab_apply (a := 512) (b := 1024) v _ u p o

/-! ## The payloads -/

/-- The key scratch's payload: a linear projection of the batch's token block. -/
theorem keys_apply (x : FVec Ideal S1x2048x1024 .bf16) (W : FVec Ideal S1024x1024 .bf16) (b : FVec Ideal S1x1024 .f32)
    (k : Fin 2048) (e : Fin 1024) :
    k0_pay3 (F := Ideal) x W b (ix2 k e)
      = (∑ d : Fin 1024, x (ix3 (0 : Fin 1) k d) * W (ix2 e d)) + b (ix2 (0 : Fin 1) e) := by
  unfold k0_pay3 k0_pay2
  simp only [shapeCast_self, truncf_apply, addf_apply, mm_proj_big, biasbc_big, squeeze_big]

/-- The value scratch's payload: the same projection with the value weights. -/
theorem values_apply (x : FVec Ideal S1x2048x1024 .bf16) (W : FVec Ideal S1024x1024 .bf16) (b : FVec Ideal S1x1024 .f32)
    (k : Fin 2048) (o : Fin 1024) :
    k0_pay4 (F := Ideal) x W b (ix2 k o)
      = (∑ d : Fin 1024, x (ix3 (0 : Fin 1) k d) * W (ix2 o d)) + b (ix2 (0 : Fin 1) o) := by
  unfold k0_pay4 k0_pay2
  simp only [shapeCast_self, truncf_apply, addf_apply, mm_proj_big, biasbc_big, squeeze_big]

/-- The output tile's payload at `(r, o)`: the attention row of the tile's token `r` in the kernel's order, over the
    keys and values the two scratch buffers hold. -/
theorem tile_apply (x : FVec Ideal S1x512x1024 .bf16) (W : FVec Ideal S1024x1024 .bf16) (b : FVec Ideal S1x1024 .f32)
    (Ks Vs : FVec Ideal S2048x1024 .bf16) (r : Fin 512) (o : Fin 1024) :
    k0_pay5 (F := Ideal) x W b Ks Vs (ix2 r o)
      = Attn.kernelRow (fun e : Fin 1024 => (∑ d : Fin 1024, x (ix3 (0 : Fin 1) r d) * W (ix2 e d)) + b (ix2 (0 : Fin 1) e))
          (fun (k : Fin 2048) (e : Fin 1024) => Ks (ix2 k e)) (fun (k : Fin 2048) (o' : Fin 1024) => Vs (ix2 k o')) o := by
  unfold k0_pay5 Attn.kernelRow Attn.softmaxMulRecip Attn.kScore
  simp only [shapeCast_self, truncf_apply, addf_apply, mulf_apply, subf_apply, divf_apply, exp_apply, broadcast_apply,
    mm_out, mm_scores, mm_proj_tile, biasbc_tile, squeeze_tile, col_apply, colbc_apply, Ideal.ofBits_def]
  rw [rowmax_apply, rowsum_apply]
  simp only [shapeCast_self, truncf_apply, addf_apply, mulf_apply, subf_apply, divf_apply, exp_apply, broadcast_apply,
    mm_out, mm_scores, mm_proj_tile, biasbc_tile, squeeze_tile, col_apply, colbc_apply, Ideal.ofBits_def]
  rw [rowmax_apply]
  simp only [shapeCast_self, truncf_apply, addf_apply, mulf_apply, subf_apply, divf_apply, exp_apply, broadcast_apply,
    mm_out, mm_scores, mm_proj_tile, biasbc_tile, squeeze_tile, col_apply, colbc_apply, Ideal.ofBits_def]

/-- The stored block is the tile with a unit batch axis. -/
theorem stored_apply (v : FVec Ideal S512x1024 .f32) (u : Fin 1) (r : Fin 512) (o : Fin 1024) :
    k0_pay1 (F := Ideal) v (ix3 u r o) = v (ix2 r o) := by
  unfold k0_pay1
  exact unsqueeze_tile v u r o

end Cert.KernelIdeal.Pay

end
-- ==== Proof.Rows.lean ====
/-
  The kernel's three pure values in terms of the argument arrays, stated over arbitrary blocks.

  Let a token block `x`, a weight block `W` and a bias row `bias` be given together with the facts that they read
  the argument arrays: `x (u, k, d) = X (b, k, d)` for one batch `b`, `W (e, d) = Wᵃ (e, d)`,
  `bias (u, e) = Bᵃ (e)`.  Then the key and value scratch payloads are the projections of batch `b`
  (`proj_of_blocks`), and the stored output tile, whose own token rows start at row `r0` of the batch, is the
  specification `Attn.G` at those rows (`tile_of_blocks`).  The second statement is where the kernel's order of
  operations meets the reference's: it uses that all entries are real.
-/
import proofs.«114856_j16363825398359_2_alg».proof.Proof.Payloads
import proofs.«114856_j16363825398359_2_alg».proof.Proof.AttnRow

open scoped BigOperators

noncomputable section

namespace Cert.KernelIdeal.Rows

open Cert.KernelIdeal Cert.KernelIdeal.Gen Idealize.ShloMosaic Idealize.ShloMosaic.ValueIdx

/-- Batch `b`'s projection as the contents of a `[2048, 1024]` buffer. -/
def projOf (X : Attn.SX.Idx → EReal) (W : Attn.SW.Idx → EReal) (B : Attn.SB.Idx → EReal) (b : Fin 4) :
    FVec Ideal S2048x1024 .bf16 :=
  fun j => Attn.proj X W B b (j 0) (j 1)

theorem projOf_apply (X : Attn.SX.Idx → EReal) (W : Attn.SW.Idx → EReal) (B : Attn.SB.Idx → EReal) (b : Fin 4)
    (k : Fin 2048) (e : Fin 1024) : projOf X W B b (ix2 k e) = Attn.proj X W B b k e := rfl

/-- A projection of a token block that reads batch `b`, by weights and a bias row that read the argument arrays. -/
theorem proj_sum (x : FVec Ideal S1x2048x1024 .bf16) (W : FVec Ideal S1024x1024 .bf16) (bias : FVec Ideal S1x1024 .f32)
    (X : Attn.SX.Idx → EReal) (Wa : Attn.SW.Idx → EReal) (Ba : Attn.SB.Idx → EReal) (b : Fin 4)
    (hx : ∀ (u : Fin 1) (k : Fin 2048) (d : Fin 1024), x (ix3 u k d) = X (ix3 b k d))
    (hW : ∀ e d : Fin 1024, W (ix2 e d) = Wa (ix2 e d))
    (hb : ∀ (u : Fin 1) (e : Fin 1024), bias (ix2 u e) = Ba (ix1 e)) (k : Fin 2048) (e : Fin 1024) :
    (∑ d : Fin 1024, x (ix3 (0 : Fin 1) k d) * W (ix2 e d)) + bias (ix2 (0 : Fin 1) e) = Attn.proj X Wa Ba b k e := by
  unfold Attn.proj
  rw [hb]
  exact congrArg (· + Ba (ix1 e)) (Finset.sum_congr rfl fun d _ => by rw [hx, hW])

/-- The key scratch payload is batch `b`'s key projection. -/
theorem keys_of_blocks (x : FVec Ideal S1x2048x1024 .bf16) (W : FVec Ideal S1024x1024 .bf16) (bias : FVec Ideal S1x1024 .f32)
    (X : Attn.SX.Idx → EReal) (Wa : Attn.SW.Idx → EReal) (Ba : Attn.SB.Idx → EReal) (b : Fin 4)
    (hx : ∀ (u : Fin 1) (k : Fin 2048) (d : Fin 1024), x (ix3 u k d) = X (ix3 b k d))
    (hW : ∀ e d : Fin 1024, W (ix2 e d) = Wa (ix2 e d))
    (hb : ∀ (u : Fin 1) (e : Fin 1024), bias (ix2 u e) = Ba (ix1 e)) :
    k0_pay3 (F := Ideal) x W bias = projOf X Wa Ba b := by
  funext j
  obtain ⟨k, e, rfl⟩ : ∃ (k : Fin 2048) (e : Fin 1024), j = ix2 k e := ⟨j 0, j 1, eq_ix2 j⟩
  rw [Pay.keys_apply, projOf_apply]
  exact proj_sum x W bias X Wa Ba b hx hW hb k e

/-- The value scratch payload is batch `b`'s value projection. -/
theorem values_of_blocks (x : FVec Ideal S1x2048x1024 .bf16) (W : FVec Ideal S1024x1024 .bf16) (bias : FVec Ideal S1x1024 .f32)
    (X : Attn.SX.Idx → EReal) (Wa : Attn.SW.Idx → EReal) (Ba : Attn.SB.Idx → EReal) (b : Fin 4)
    (hx : ∀ (u : Fin 1) (k : Fin 2048) (d : Fin 1024), x (ix3 u k d) = X (ix3 b k d))
    (hW : ∀ e d : Fin 1024, W (ix2 e d) = Wa (ix2 e d))
    (hb : ∀ (u : Fin 1) (e : Fin 1024), bias (ix2 u e) = Ba (ix1 e)) :
    k0_pay4 (F := Ideal) x W bias = projOf X Wa Ba b := by
  funext j
  obtain ⟨k, e, rfl⟩ : ∃ (k : Fin 2048) (e : Fin 1024), j = ix2 k e := ⟨j 0, j 1, eq_ix2 j⟩
  rw [Pay.values_apply, projOf_apply]
  exact proj_sum x W bias X Wa Ba b hx hW hb k e

/-- The stored tile at `(u, r, o)` is the specification at row `r0 + r` of batch `b`: the tile's tokens read the batch's
    rows from `r0`, the scratch buffers hold the batch's key and value projections, and every entry is real. -/
theorem tile_of_blocks (xq : FVec Ideal S1x512x1024 .bf16) (W : FVec Ideal S1024x1024 .bf16) (bias : FVec Ideal S1x1024 .f32)
    (X : Attn.SX.Idx → EReal) (Wq : Attn.SW.Idx → EReal) (Bq : Attn.SB.Idx → EReal) (Wk : Attn.SW.Idx → EReal)
    (Bk : Attn.SB.Idx → EReal) (Wv : Attn.SW.Idx → EReal) (Bv : Attn.SB.Idx → EReal) (b : Fin 4) (r0 : ℕ)
    (hxq : ∀ (u : Fin 1) (r : Fin 512) (d : Fin 1024) (r' : Fin 2048), r'.val = r0 + r.val → xq (ix3 u r d) = X (ix3 b r' d))
    (hW : ∀ e d : Fin 1024, W (ix2 e d) = Wq (ix2 e d))
    (hb : ∀ (u : Fin 1) (e : Fin 1024), bias (ix2 u e) = Bq (ix1 e))
    (hX : ∀ i, Attn.IsReal (X i)) (hWq : ∀ i, Attn.IsReal (Wq i)) (hBq : ∀ i, Attn.IsReal (Bq i))
    (hWk : ∀ i, Attn.IsReal (Wk i)) (hBk : ∀ i, Attn.IsReal (Bk i))
    (u : Fin 1) (r : Fin 512) (o : Fin 1024) (r' : Fin 2048) (hr : r'.val = r0 + r.val) :
    k0_pay1 (F := Ideal) (k0_pay5 (F := Ideal) xq W bias (projOf X Wk Bk b) (projOf X Wv Bv b)) (ix3 u r o)
      = Attn.G X Wq Bq Wk Bk Wv Bv (ix3 b r' o) := by
  rw [Pay.stored_apply, Pay.tile_apply, Attn.G_ix3]
  unfold Attn.attn
  have hq : (fun e : Fin 1024 => (∑ d : Fin 1024, xq (ix3 (0 : Fin 1) r d) * W (ix2 e d)) + bias (ix2 (0 : Fin 1) e))
      = fun e => Attn.proj X Wq Bq b r' e := funext fun e => by
    unfold Attn.proj
    rw [hb]
    exact congrArg (· + Bq (ix1 e)) (Finset.sum_congr rfl fun d _ => by rw [hxq (0 : Fin 1) r d r' hr, hW])
  rw [hq]
  exact Attn.kernelRow_eq_refRow (by decide) _ _ (fun e => Attn.isReal_proj hX hWq hBq b r' e)
    (fun k e => Attn.isReal_proj hX hWk hBk b k e) _ o

end Cert.KernelIdeal.Rows

end
-- ==== Proof.Pieces.lean ====
/-
  What the kernel body leaves behind, case by case, as values.

  At the first query tile of a batch (case A) the body stores the key projection and the value projection of the
  batch's whole token block into the two scratch buffers, reads them back, and stores the output tile computed
  from them.  At the other query tiles (case B) the scratch buffers are only read: they hold what the point
  before left.  In both cases the tile's own tokens are rows `512 * qi .. 512 * qi + 511` of the batch's token
  block, loaded through a rectangle at that offset (`qrows`).
-/
import proofs.«114856_j16363825398359_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The tile's own token rows: the batch's token block read through the rectangle `[1, 512, 1024]` at the tile's
    row offset. -/
def qrows (i : grid0.Coords) (x0 : Vec F S1x2048x1024 .bf16) : Vec F S1x512x1024 .bf16 :=
  View.ld x0 (Rect.unit (s := S1x2048x1024) (k0_off1 i) S1x512x1024.size (k0_off1_inb i))

/-- CASE B: the output tile from the tile's rows, the query weights and bias, and the scratch buffers as found. -/
theorem out_B (c : Dev nD) (i : grid0.Coords) (a2 : Memref sig .tc .vmem S1x2048x1024 .bf16) (h2 : a2.IsWhole) (a3 : Memref sig .tc .vmem S1024x1024 .bf16) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S1024x1024 .bf16) (h7 : a7.IsWhole) (a8 : Memref sig .tc .vmem S1x1024 .f32) (h8 : a8.IsWhole) (a9 : Memref sig .tc .vmem S1x512x1024 .f32) (h9 : a9.IsWhole) (a10 : Memref sig .tc .vmem S2048x1024 .bf16) (h10 : a10.IsWhole) (a11 : Memref sig .tc .vmem S2048x1024 .bf16) (h11 : a11.IsWhole) (hc : ¬cond0_0 i) (x0 : Vec F S1x2048x1024 .bf16) (x1 : Vec F S1024x1024 .bf16) (x2 : Vec F S1x1024 .f32) (x3 : Vec F S1024x1024 .bf16) (x4 : Vec F S1x1024 .f32) (x5 : Vec F S1024x1024 .bf16) (x6 : Vec F S1x1024 .f32) (xs0 xs1 : Vec F S2048x1024 .bf16) :
    out0_B_7 c i a2 h2 a3 h3 a4 h4 a5 h5 a6 h6 a7 h7 a8 h8 a9 h9 a10 h10 a11 h11 hc x0 x1 x2 x3 x4 x5 x6 xs0 xs1 = k0_pay1 (k0_pay5 (qrows i x0) x1 x2 xs0 xs1) := by
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 x6 xs0 xs1)]
  unfold kernelRun0_B
  dsimp only
  sl_unfold_words
  rw [View.canon_unit_zero hz3]
  simp only [View.readAt_eq_ld, h2.read_unread, h3.read_unread, h4.read_unread, h10.read_unread, h11.read_unread,
    View.ld_unit_zero (S := S1024x1024) hz2, View.ld_unit_zero (S := S1x1024) hz2, View.ld_unit_zero (S := S2048x1024) hz2]
  rfl

/-- CASE A: the key scratch is left at the key projection of the batch's token block. -/
theorem keys_A (c : Dev nD) (i : grid0.Coords) (a2 : Memref sig .tc .vmem S1x2048x1024 .bf16) (h2 : a2.IsWhole) (a3 : Memref sig .tc .vmem S1024x1024 .bf16) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S1024x1024 .bf16) (h7 : a7.IsWhole) (a8 : Memref sig .tc .vmem S1x1024 .f32) (h8 : a8.IsWhole) (a9 : Memref sig .tc .vmem S1x512x1024 .f32) (h9 : a9.IsWhole) (a10 : Memref sig .tc .vmem S2048x1024 .bf16) (h10 : a10.IsWhole) (a11 : Memref sig .tc .vmem S2048x1024 .bf16) (h11 : a11.IsWhole) (hc : cond0_0 i) (x0 : Vec F S1x2048x1024 .bf16) (x1 : Vec F S1024x1024 .bf16) (x2 : Vec F S1x1024 .f32) (x3 : Vec F S1024x1024 .bf16) (x4 : Vec F S1x1024 .f32) (x5 : Vec F S1024x1024 .bf16) (x6 : Vec F S1x1024 .f32) :
    sout0_A_0 c i a2 h2 a3 h3 a4 h4 a5 h5 a6 h6 a7 h7 a8 h8 a9 h9 a10 h10 a11 h11 hc x0 x1 x2 x3 x4 x5 x6 = k0_pay3 x0 x3 x4 := by
  unfold sout0_A_0
  rw [View.read_writes_eq_canon _ _ _ (scover0_A_0 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz2]
  simp only [View.readAt_eq_ld, h2.read_unread, h5.read_unread, h6.read_unread,
    View.ld_unit_zero (S := S1x2048x1024) hz3, View.ld_unit_zero (S := S1024x1024) hz2, View.ld_unit_zero (S := S1x1024) hz2]

/-- CASE A: the value scratch is left at the value projection of the batch's token block. -/
theorem values_A (c : Dev nD) (i : grid0.Coords) (a2 : Memref sig .tc .vmem S1x2048x1024 .bf16) (h2 : a2.IsWhole) (a3 : Memref sig .tc .vmem S1024x1024 .bf16) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S1024x1024 .bf16) (h7 : a7.IsWhole) (a8 : Memref sig .tc .vmem S1x1024 .f32) (h8 : a8.IsWhole) (a9 : Memref sig .tc .vmem S1x512x1024 .f32) (h9 : a9.IsWhole) (a10 : Memref sig .tc .vmem S2048x1024 .bf16) (h10 : a10.IsWhole) (a11 : Memref sig .tc .vmem S2048x1024 .bf16) (h11 : a11.IsWhole) (hc : cond0_0 i) (x0 : Vec F S1x2048x1024 .bf16) (x1 : Vec F S1024x1024 .bf16) (x2 : Vec F S1x1024 .f32) (x3 : Vec F S1024x1024 .bf16) (x4 : Vec F S1x1024 .f32) (x5 : Vec F S1024x1024 .bf16) (x6 : Vec F S1x1024 .f32) :
    sout0_A_1 c i a2 h2 a3 h3 a4 h4 a5 h5 a6 h6 a7 h7 a8 h8 a9 h9 a10 h10 a11 h11 hc x0 x1 x2 x3 x4 x5 x6 = k0_pay4 x0 x5 x6 := by
  unfold sout0_A_1
  rw [View.read_writes_eq_canon _ _ _ (scover0_A_1 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz2]
  simp only [View.readAt_eq_ld, h2.read_unread, h7.read_unread, h8.read_unread,
    View.ld_unit_zero (S := S1x2048x1024) hz3, View.ld_unit_zero (S := S1024x1024) hz2, View.ld_unit_zero (S := S1x1024) hz2]

/-- CASE A: the output tile from the tile's rows and the two projections just stored and read back. -/
theorem out_A (c : Dev nD) (i : grid0.Coords) (a2 : Memref sig .tc .vmem S1x2048x1024 .bf16) (h2 : a2.IsWhole) (a3 : Memref sig .tc .vmem S1024x1024 .bf16) (h3 : a3.IsWhole) (a4 : Memref sig .tc .vmem S1x1024 .f32) (h4 : a4.IsWhole) (a5 : Memref sig .tc .vmem S1024x1024 .bf16) (h5 : a5.IsWhole) (a6 : Memref sig .tc .vmem S1x1024 .f32) (h6 : a6.IsWhole) (a7 : Memref sig .tc .vmem S1024x1024 .bf16) (h7 : a7.IsWhole) (a8 : Memref sig .tc .vmem S1x1024 .f32) (h8 : a8.IsWhole) (a9 : Memref sig .tc .vmem S1x512x1024 .f32) (h9 : a9.IsWhole) (a10 : Memref sig .tc .vmem S2048x1024 .bf16) (h10 : a10.IsWhole) (a11 : Memref sig .tc .vmem S2048x1024 .bf16) (h11 : a11.IsWhole) (hc : cond0_0 i) (x0 : Vec F S1x2048x1024 .bf16) (x1 : Vec F S1024x1024 .bf16) (x2 : Vec F S1x1024 .f32) (x3 : Vec F S1024x1024 .bf16) (x4 : Vec F S1x1024 .f32) (x5 : Vec F S1024x1024 .bf16) (x6 : Vec F S1x1024 .f32) :
    out0_A_7 c i a2 h2 a3 h3 a4 h4 a5 h5 a6 h6 a7 h7 a8 h8 a9 h9 a10 h10 a11 h11 hc x0 x1 x2 x3 x4 x5 x6
      = k0_pay1 (k0_pay5 (qrows i x0) x1 x2 (k0_pay3 x0 x3 x4) (k0_pay4 x0 x5 x6)) := by
  unfold out0_A_7
  rw [View.read_writes_eq_canon _ _ _ (cover0_A_7 c i a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz3, View.readCov_unit_zero (S := S2048x1024) _ hz2, View.readCov_unit_zero (S := S2048x1024) _ hz2]
  simp only [View.readAt_eq_ld, h2.read_unread, h3.read_unread, h4.read_unread, h5.read_unread, h6.read_unread,
    h7.read_unread, h8.read_unread,
    View.ld_unit_zero (S := S1x2048x1024) hz3, View.ld_unit_zero (S := S1024x1024) hz2, View.ld_unit_zero (S := S1x1024) hz2]
  rfl

/-- The tile's rows, read at coordinates: row `r` of the tile is row `512 * qi + r` of the batch's block. -/
theorem qrows_apply (i : grid0.Coords) (x0 : Vec F S1x2048x1024 .bf16) (u : Fin 1) (r : Fin 512) (d : Fin 1024)
    (r' : Fin 2048) (hr : r'.val = 512 * (i 1).val + r.val) :
    qrows i x0 (ValueIdx.ix3 u r d) = x0 (ValueIdx.ix3 (0 : Fin 1) r' d) := by
  unfold qrows
  show x0 _ = x0 _
  refine congrArg x0 (funext fun a => Fin.ext ?_)
  have hoff := k0_off1_eq i
  have hu : u.val = 0 := by omega
  match a with
  | ⟨0, _⟩ =>
    show k0_off1 i 0 + 1 * u.val = 0
    rw [hoff, hu]; rfl
  | ⟨1, _⟩ =>
    show k0_off1 i 1 + 1 * r.val = r'.val
    rw [hoff, hr]; show 512 * (i 1).val + 1 * r.val = _; omega
  | ⟨2, _⟩ =>
    show k0_off1 i 2 + 1 * d.val = d.val
    rw [hoff]; show 0 + 1 * d.val = d.val; omega

end Cert.KernelIdeal.Pieces

end
-- ==== Proof.Blocks.lean ====
/-
  The blocks the kernel's windows stage, read at coordinates in terms of the seven argument arrays.

  The grid is `4 × 4`: point `t` is batch `t / 4`, query tile `t % 4`.  The token window stages the whole token
  block `[1, 2048, 1024]` of batch `t / 4`; the three weight windows and the three bias windows stage their whole
  arrays at every point; the output window's block at point `t` is rows `512 * (t % 4) ..` of batch `t / 4`.
  Before the region the host rounds the tokens and the weights to a narrower float format, which is the identity
  over the extended reals, and recasts each bias `[1024]` as the row `[1, 1024]`.
-/
import proofs.«114856_j16363825398359_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The index maps, decided once over the sixteen grid points -/

theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 4 ∧ win0_7.index t (1 : Fin 3) = t.val % 4 ∧ win0_7.index t (2 : Fin 3) = 0
    ∧ (grid0.coords t (1 : Fin 2)).val = t.val % 4 :=
  (by decide +kernel : ∀ t : Fin grid0.N, _)

/-- Every (batch, query tile) pair is some grid point's. -/
theorem idx_onto : ∀ (b : Fin 4) (q : Fin 4), ∃ t : Fin cfg0.N, t.val = 4 * b.val + q.val :=
  (by decide +kernel : ∀ (b : Fin 4) (q : Fin 4), ∃ t : Fin grid0.N, t.val = 4 * b.val + q.val)

/-! ## What the region finds in the staged arrays -/

theorem V_x (c : Dev nD) : (V m c main_v0 : S4x2048x1024.Idx → EReal) = (m ((c : Thread nD τ).loc main_arg0)) := by
  dsimp only [V, hostOps0]; after_results; rfl

theorem V_wq (c : Dev nD) : (V m c main_v1 : S1024x1024.Idx → EReal) = (m ((c : Thread nD τ).loc main_arg1)) := by
  dsimp only [V, hostOps0]; after_results; rfl

theorem V_wk (c : Dev nD) : (V m c main_v2 : S1024x1024.Idx → EReal) = (m ((c : Thread nD τ).loc main_arg3)) := by
  dsimp only [V, hostOps0]; after_results; rfl

theorem V_wv (c : Dev nD) : (V m c main_v3 : S1024x1024.Idx → EReal) = (m ((c : Thread nD τ).loc main_arg5)) := by
  dsimp only [V, hostOps0]; after_results; rfl

theorem V_bq (c : Dev nD) : (V m c main_v4 : S1x1024.Idx → EReal)
    = shapeCast S1x1024 (m ((c : Thread nD τ).loc main_arg2)) shapeCasts_S1024_S1x1024 := by
  dsimp only [V, hostOps0]; after_results; rfl

theorem V_bk (c : Dev nD) : (V m c main_v5 : S1x1024.Idx → EReal)
    = shapeCast S1x1024 (m ((c : Thread nD τ).loc main_arg4)) shapeCasts_S1024_S1x1024 := by
  dsimp only [V, hostOps0]; after_results; rfl

theorem V_bv (c : Dev nD) : (V m c main_v6 : S1x1024.Idx → EReal)
    = shapeCast S1x1024 (m ((c : Thread nD τ).loc main_arg6)) shapeCasts_S1024_S1x1024 := by
  dsimp only [V, hostOps0]; after_results; rfl

/-! ## The blocks at coordinates -/

/-- The token block at point `t` is batch `t / 4` of the tokens. -/
theorem tokens_apply (c : Dev nD) (t : Fin cfg0.N) (u : Fin 1) (k : Fin 2048) (d : Fin 1024) (b : Fin 4)
    (hb : b.val = t.val / 4) :
    (iblk m c 0 t : Vec Ideal S1x2048x1024 .bf16) (ix3 u k d) = (m ((c : Thread nD τ).loc main_arg0)) (ix3 b k d) := by
  unfold iblk
  show V m c main_v0 (((cfg0.win 0).blk t).view.emb (ix3 u k d)) = _
  rw [V_x]
  refine congrArg _ (funext fun a => Fin.ext ?_)
  obtain ⟨e0, e1, e2, -⟩ := idx_facts t
  have hu : u.val = 0 := by omega
  match a with
  | ⟨0, _⟩ => show win0_0.index t (0 : Fin 3) * 1 + 1 * u.val = b.val; rw [e0, hu, hb]; omega
  | ⟨1, _⟩ => show win0_0.index t (1 : Fin 3) * 2048 + 1 * k.val = k.val; rw [e1]; omega
  | ⟨2, _⟩ => show win0_0.index t (2 : Fin 3) * 1024 + 1 * d.val = d.val; rw [e2]; omega

/-- The query weights' block is the whole array. -/
theorem wq_apply (c : Dev nD) (t : Fin cfg0.N) (e d : Fin 1024) :
    (iblk m c 1 t : Vec Ideal S1024x1024 .bf16) (ix2 e d) = (m ((c : Thread nD τ).loc main_arg1)) (ix2 e d) := by
  unfold iblk
  show V m c main_v1 (((cfg0.win 1).blk t).view.emb (ix2 e d)) = _
  rw [V_wq]
  refine congrArg _ (funext fun a => Fin.ext ?_)
  obtain ⟨-, -, -, e0, e1, -⟩ := idx_facts t
  match a with
  | ⟨0, _⟩ => show win0_1.index t (0 : Fin 2) * 1024 + 1 * e.val = e.val; rw [e0]; omega
  | ⟨1, _⟩ => show win0_1.index t (1 : Fin 2) * 1024 + 1 * d.val = d.val; rw [e1]; omega

/-- The key weights' block is the whole array. -/
theorem wk_apply (c : Dev nD) (t : Fin cfg0.N) (e d : Fin 1024) :
    (iblk m c 3 t : Vec Ideal S1024x1024 .bf16) (ix2 e d) = (m ((c : Thread nD τ).loc main_arg3)) (ix2 e d) := by
  unfold iblk
  show V m c main_v2 (((cfg0.win 3).blk t).view.emb (ix2 e d)) = _
  rw [V_wk]
  refine congrArg _ (funext fun a => Fin.ext ?_)
  obtain ⟨-, -, -, -, -, -, -, e0, e1, -⟩ := idx_facts t
  match a with
  | ⟨0, _⟩ => show win0_3.index t (0 : Fin 2) * 1024 + 1 * e.val = e.val; rw [e0]; omega
  | ⟨1, _⟩ => show win0_3.index t (1 : Fin 2) * 1024 + 1 * d.val = d.val; rw [e1]; omega

/-- The value weights' block is the whole array. -/
theorem wv_apply (c : Dev nD) (t : Fin cfg0.N) (e d : Fin 1024) :
    (iblk m c 5 t : Vec Ideal S1024x1024 .bf16) (ix2 e d) = (m ((c : Thread nD τ).loc main_arg5)) (ix2 e d) := by
  unfold iblk
  show V m c main_v3 (((cfg0.win 5).blk t).view.emb (ix2 e d)) = _
  rw [V_wv]
  refine congrArg _ (funext fun a => Fin.ext ?_)
  obtain ⟨-, -, -, -, -, -, -, -, -, -, -, e0, e1, -⟩ := idx_facts t
  match a with
  | ⟨0, _⟩ => show win0_5.index t (0 : Fin 2) * 1024 + 1 * e.val = e.val; rw [e0]; omega
  | ⟨1, _⟩ => show win0_5.index t (1 : Fin 2) * 1024 + 1 * d.val = d.val; rw [e1]; omega

/-- The query bias row is the bias. -/
theorem bq_apply (c : Dev nD) (t : Fin cfg0.N) (u : Fin 1) (e : Fin 1024) :
    (iblk m c 2 t : Vec Ideal S1x1024 .f32) (ix2 u e) = (m ((c : Thread nD τ).loc main_arg2)) (ix1 e) := by
  unfold iblk
  show V m c main_v4 (((cfg0.win 2).blk t).view.emb (ix2 u e)) = _
  rw [V_bq]
  obtain ⟨-, -, -, -, -, e0, e1, -⟩ := idx_facts t
  have hemb : ((cfg0.win 2).blk t).view.emb (ix2 u e) = ix2 u e := funext fun a => Fin.ext (by
    match a with
    | ⟨0, _⟩ => show win0_2.index t (0 : Fin 2) * 1 + 1 * u.val = u.val; rw [e0]; omega
    | ⟨1, _⟩ => show win0_2.index t (1 : Fin 2) * 1024 + 1 * e.val = e.val; rw [e1]; omega)
  rw [hemb]
  exact shapeCast_a_1a_apply (a := 1024) _ _ u e

/-- The key bias row is the bias. -/
theorem bk_apply (c : Dev nD) (t : Fin cfg0.N) (u : Fin 1) (e : Fin 1024) :
    (iblk m c 4 t : Vec Ideal S1x1024 .f32) (ix2 u e) = (m ((c : Thread nD τ).loc main_arg4)) (ix1 e) := by
  unfold iblk
  show V m c main_v5 (((cfg0.win 4).blk t).view.emb (ix2 u e)) = _
  rw [V_bk]
  obtain ⟨-, -, -, -, -, -, -, -, -, e0, e1, -⟩ := idx_facts t
  have hemb : ((cfg0.win 4).blk t).view.emb (ix2 u e) = ix2 u e := funext fun a => Fin.ext (by
    match a with
    | ⟨0, _⟩ => show win0_4.index t (0 : Fin 2) * 1 + 1 * u.val = u.val; rw [e0]; omega
    | ⟨1, _⟩ => show win0_4.index t (1 : Fin 2) * 1024 + 1 * e.val = e.val; rw [e1]; omega)
  rw [hemb]
  exact shapeCast_a_1a_apply (a := 1024) _ _ u e

/-- The value bias row is the bias. -/
theorem bv_apply (c : Dev nD) (t : Fin cfg0.N) (u : Fin 1) (e : Fin 1024) :
    (iblk m c 6 t : Vec Ideal S1x1024 .f32) (ix2 u e) = (m ((c : Thread nD τ).loc main_arg6)) (ix1 e) := by
  unfold iblk
  show V m c main_v6 (((cfg0.win 6).blk t).view.emb (ix2 u e)) = _
  rw [V_bv]
  obtain ⟨-, -, -, -, -, -, -, -, -, -, -, -, -, e0, e1, -⟩ := idx_facts t
  have hemb : ((cfg0.win 6).blk t).view.emb (ix2 u e) = ix2 u e := funext fun a => Fin.ext (by
    match a with
    | ⟨0, _⟩ => show win0_6.index t (0 : Fin 2) * 1 + 1 * u.val = u.val; rw [e0]; omega
    | ⟨1, _⟩ => show win0_6.index t (1 : Fin 2) * 1024 + 1 * e.val = e.val; rw [e1]; omega)
  rw [hemb]
  exact shapeCast_a_1a_apply (a := 1024) _ _ u e

/-- Where the output block of point `t` sits in the result array. -/
theorem out_emb (t : Fin cfg0.N) (u : Fin 1) (r : Fin 512) (o : Fin 1024) (b : Fin 4) (r' : Fin 2048)
    (hb : b.val = t.val / 4) (hr : r'.val = 512 * (t.val % 4) + r.val) :
    ((cfg0.win 7).blk t).view.emb (ix3 u r o) = (ix3 b r' o : S4x2048x1024.Idx) := by
  refine funext fun a => Fin.ext ?_
  obtain ⟨-, -, -, -, -, -, -, -, -, -, -, -, -, -, -, e0, e1, e2, -⟩ := idx_facts t
  have hu : u.val = 0 := by omega
  match a with
  | ⟨0, _⟩ => show win0_7.index t (0 : Fin 3) * 1 + 1 * u.val = b.val; rw [e0, hu, hb]; omega
  | ⟨1, _⟩ => show win0_7.index t (1 : Fin 3) * 512 + 1 * r.val = r'.val; rw [e1, hr]; omega
  | ⟨2, _⟩ => show win0_7.index t (2 : Fin 3) * 1024 + 1 * o.val = o.val; rw [e2]; omega

/-- An index of the result array is in point `t`'s block iff each coordinate is in the block's range. -/
theorem mem_out_blk (t : Fin cfg0.N) (i : S4x2048x1024.Idx) :
    i ∈ ((cfg0.win 7).blk t).view.set ↔ ∀ a : Fin 3, win0_7.index t a * S1x512x1024.size a ≤ (i a).val
      ∧ (i a).val < win0_7.index t a * S1x512x1024.size a + S1x512x1024.size a := by
  show i ∈ ((View.whole main_v7).slice (win0_7.rect t)).set ↔ _
  rw [View.set_slice_whole, Rect.mem_set_unit]
  exact Iff.rfl

end Cert.KernelIdeal.Blocks

end
-- ==== Proof.KernelValue.lean ====
/-
  The kernel's result array is the attention specification of its seven arguments.

  The grid runs batch by batch, four query tiles per batch.  The first tile of a batch fills the two scratch
  buffers with the batch's key and value projections; the later tiles find them there.  So after EVERY point `t` the
  scratch buffers hold the projections of batch `t / 4` (`scratch_at`, by induction on the point: a first tile
  stores them, any other tile keeps what the point before left, and `(t - 1) / 4 = t / 4` off the multiples of four).
  Hence at every point the output buffer holds the tile computed from the batch's projections (`out_at`), which is
  the specification `Attn.G` on rows `512 * (t % 4) ..` of batch `t / 4` (`flushed_eq`).  The sixteen blocks tile the
  result array (`cover`), so the array ends at `Attn.G` (`final`, `run`).  The entries being real is used once, where
  the kernel's order of operations is traded for the reference's.
-/
import proofs.«114856_j16363825398359_2_alg».proof.Proof.Gen.KernelIdeal.Value
import proofs.«114856_j16363825398359_2_alg».proof.Proof.Rows
import proofs.«114856_j16363825398359_2_alg».proof.Proof.Pieces
import proofs.«114856_j16363825398359_2_alg».proof.Proof.Blocks

noncomputable section

namespace Cert.KernelIdeal.AttnValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The seven argument arrays on core `c`. -/
abbrev aX (c : Dev nD) : Attn.SX.Idx → EReal := m ((c : Thread nD τ).loc main_arg0)
abbrev aWq (c : Dev nD) : Attn.SW.Idx → EReal := m ((c : Thread nD τ).loc main_arg1)
abbrev aBq (c : Dev nD) : Attn.SB.Idx → EReal := m ((c : Thread nD τ).loc main_arg2)
abbrev aWk (c : Dev nD) : Attn.SW.Idx → EReal := m ((c : Thread nD τ).loc main_arg3)
abbrev aBk (c : Dev nD) : Attn.SB.Idx → EReal := m ((c : Thread nD τ).loc main_arg4)
abbrev aWv (c : Dev nD) : Attn.SW.Idx → EReal := m ((c : Thread nD τ).loc main_arg5)
abbrev aBv (c : Dev nD) : Attn.SB.Idx → EReal := m ((c : Thread nD τ).loc main_arg6)

/-- Every entry of every argument array is a real. -/
def AllReal : Prop := ∀ c : Dev nD, (∀ i, Attn.IsReal (aX m c i)) ∧ (∀ i, Attn.IsReal (aWq m c i)) ∧ (∀ i, Attn.IsReal (aBq m c i))
  ∧ (∀ i, Attn.IsReal (aWk m c i)) ∧ (∀ i, Attn.IsReal (aBk m c i)) ∧ (∀ i, Attn.IsReal (aWv m c i)) ∧ (∀ i, Attn.IsReal (aBv m c i))

/-- The batch of grid point `t`. -/
def batch (t : Fin cfg0.N) : Fin 4 :=
  ⟨t.val / 4, by have h := lt_of_lt_of_eq t.isLt (show cfg0.N = 16 from N_0); omega⟩

/-- The key projection payload of the blocks at any point is the point's batch's key projection. -/
theorem keys_point (c : Dev nD) (t : Fin cfg0.N) :
    k0_pay3 (F := Ideal) (iblk m c 0 t) (iblk m c 3 t) (iblk m c 4 t) = Rows.projOf (aX m c) (aWk m c) (aBk m c) (batch t) :=
  Rows.keys_of_blocks (iblk m c 0 t) (iblk m c 3 t) (iblk m c 4 t) (aX m c) (aWk m c) (aBk m c) (batch t)
    (fun u k d => Blocks.tokens_apply m c t u k d (batch t) rfl)
    (fun e d => Blocks.wk_apply m c t e d)
    (fun u e => Blocks.bk_apply m c t u e)

/-- The value projection payload of the blocks at any point is the point's batch's value projection. -/
theorem values_point (c : Dev nD) (t : Fin cfg0.N) :
    k0_pay4 (F := Ideal) (iblk m c 0 t) (iblk m c 5 t) (iblk m c 6 t) = Rows.projOf (aX m c) (aWv m c) (aBv m c) (batch t) :=
  Rows.values_of_blocks (iblk m c 0 t) (iblk m c 5 t) (iblk m c 6 t) (aX m c) (aWv m c) (aBv m c) (batch t)
    (fun u k d => Blocks.tokens_apply m c t u k d (batch t) rfl)
    (fun e d => Blocks.wv_apply m c t e d)
    (fun u e => Blocks.bv_apply m c t u e)

/-- After every point the two scratch buffers hold the key and value projections of the point's batch. -/
theorem scratch_at (c : Dev nD) : ∀ (n : ℕ) (h : n < cfg0.N),
    (outsAt0 m c n h).2.1 = Rows.projOf (aX m c) (aWk m c) (aBk m c) (batch ⟨n, h⟩)
      ∧ (outsAt0 m c n h).2.2 = Rows.projOf (aX m c) (aWv m c) (aBv m c) (batch ⟨n, h⟩)
  | 0, h => by
    have h0 : (⟨0, h⟩ : Fin cfg0.N).val % 4 = 0 := rfl
    rw [outsAt0_A m c ⟨0, h⟩ h0]
    dsimp only
    exact ⟨(Pieces.keys_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)).trans (keys_point m c ⟨0, h⟩),
      (Pieces.values_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) ((hcond0_0 ⟨0, h⟩).mpr h0) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)).trans (values_point m c ⟨0, h⟩)⟩
  | n + 1, h => by
    have hN : n + 1 < 16 := lt_of_lt_of_eq h (show cfg0.N = 16 from N_0)
    by_cases h0 : (⟨n + 1, h⟩ : Fin cfg0.N).val % 4 = 0
    · rw [outsAt0_A m c ⟨n + 1, h⟩ h0]
      dsimp only
      exact ⟨(Pieces.keys_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩)).trans (keys_point m c ⟨n + 1, h⟩),
        (Pieces.values_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩)).trans (values_point m c ⟨n + 1, h⟩)⟩
    · rw [outsAt0_B m c ⟨n + 1, h⟩ h0]
      dsimp only
      unfold sout0_B_0 sout0_B_1
      have ih := scratch_at c n (Nat.lt_of_succ_lt h)
      have hb : batch ⟨n + 1, h⟩ = batch ⟨n, Nat.lt_of_succ_lt h⟩ := Fin.ext (by
        show (n + 1) / 4 = n / 4
        have h0' : ¬(n + 1) % 4 = 0 := h0
        omega)
      rw [hb]
      exact ih

/-- After every point the output buffer holds the tile computed from the point's own token rows, the query weights and
    bias, and the batch's key and value projections. -/
theorem out_at (c : Dev nD) (t : Fin cfg0.N) :
    (outsAt0 m c t.val t.isLt).1
      = k0_pay1 (F := Ideal) (k0_pay5 (F := Ideal) (Pieces.qrows (grid0.coords t) (iblk m c 0 t)) (iblk m c 1 t) (iblk m c 2 t)
          (Rows.projOf (aX m c) (aWk m c) (aBk m c) (batch t)) (Rows.projOf (aX m c) (aWv m c) (aBv m c) (batch t))) := by
  have hN : t.val < 16 := lt_of_lt_of_eq t.isLt (show cfg0.N = 16 from N_0)
  by_cases h0 : t.val % 4 = 0
  · rw [outsAt0_A m c t h0]
    dsimp only
    rw [Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t), keys_point m c t, values_point m c t]
  · rw [outsAt0_B m c t h0]
    dsimp only
    rw [Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t)]
    have hlt : t.val - 1 < cfg0.N := Nat.lt_of_le_of_lt (Nat.sub_le _ _) t.isLt
    obtain ⟨ih1, ih2⟩ := scratch_at m c (t.val - 1) hlt
    have hb : batch ⟨t.val - 1, hlt⟩ = batch t := Fin.ext (by
      show (t.val - 1) / 4 = t.val / 4
      omega)
    rw [ih1, ih2, hb]

/-- What point `t` writes back is its block of the specification. -/
theorem flushed_eq (hfin : AllReal m) (c : Dev nD) (t : Fin cfg0.N) :
    (dats m 0 c).flushed 7 t = ((cfg0.win 7).blk t).view.read (Elt Ideal) (Attn.G (aX m c) (aWq m c) (aBq m c) (aWk m c) (aBk m c) (aWv m c) (aBv m c)) := by
  rw [Value.flushed7, out_at]
  have hN : t.val < 16 := lt_of_lt_of_eq t.isLt (show cfg0.N = 16 from N_0)
  obtain ⟨hX, hWq, hBq, hWk, hBk, -, -⟩ := hfin c
  refine funext fun (y : S1x512x1024.Idx) => ?_
  obtain ⟨u, r, o, rfl⟩ : ∃ (u : Fin 1) (r : Fin 512) (o : Fin 1024), y = ix3 u r o := ⟨y 0, y 1, y 2, eq_ix3 y⟩
  have hq : (grid0.coords t (1 : Fin 2)).val = t.val % 4 := (Blocks.idx_facts t).2.2.2.2.2.2.2.2.2.2.2.2.2.2.2.2.2.2
  show k0_pay1 (F := Ideal) (k0_pay5 (F := Ideal) (Pieces.qrows (grid0.coords t) (iblk m c 0 t)) (iblk m c 1 t) (iblk m c 2 t)
      (Rows.projOf (aX m c) (aWk m c) (aBk m c) (batch t)) (Rows.projOf (aX m c) (aWv m c) (aBv m c) (batch t))) (ix3 u r o)
    = Attn.G (aX m c) (aWq m c) (aBq m c) (aWk m c) (aBk m c) (aWv m c) (aBv m c) (((cfg0.win 7).blk t).view.emb (ix3 u r o))
  rw [Blocks.out_emb t u r o (batch t) ⟨512 * (t.val % 4) + r.val, by have := r.isLt; omega⟩ rfl rfl]
  exact Rows.tile_of_blocks (Pieces.qrows (grid0.coords t) (iblk m c 0 t)) (iblk m c 1 t) (iblk m c 2 t)
    (aX m c) (aWq m c) (aBq m c) (aWk m c) (aBk m c) (aWv m c) (aBv m c) (batch t) (512 * (t.val % 4))
    (fun u' r1 d r2 hr2 => (Pieces.qrows_apply (F := Ideal) (grid0.coords t) (iblk m c 0 t) u' r1 d r2 (by rw [hr2, hq])).trans
      (Blocks.tokens_apply m c t (0 : Fin 1) r2 d (batch t) rfl))
    (fun e d => Blocks.wq_apply m c t e d) (fun u' e => Blocks.bq_apply m c t u' e)
    hX hWq hBq hWk hBk u r o ⟨512 * (t.val % 4) + r.val, by have := r.isLt; omega⟩ rfl

/-- Every index of the result array lies in some point's block: batch `i 0`, query tile `i 1 / 512`. -/
theorem cover (i : S4x2048x1024.Idx) :
    ∃ t : Fin cfg0.N, (cfg0.win 7).flush t = true ∧ i ∈ ((cfg0.win 7).blk t).view.set := by
  have h0 : (i 0).val < 4 := (i 0).isLt
  have h1 : (i 1).val < 2048 := (i 1).isLt
  have h2 : (i 2).val < 1024 := (i 2).isLt
  obtain ⟨t, ht⟩ := Blocks.idx_onto ⟨(i 0).val, h0⟩ ⟨(i 1).val / 512, by omega⟩
  have ht' : t.val = 4 * (i 0).val + (i 1).val / 512 := ht
  refine ⟨t, flush0_7 t, ?_⟩
  rw [Blocks.mem_out_blk]
  obtain ⟨-, -, -, -, -, -, -, -, -, -, -, -, -, -, -, e0, e1, e2, -⟩ := Blocks.idx_facts t
  intro a
  match a with
  | ⟨0, _⟩ =>
    show win0_7.index t (0 : Fin 3) * 1 ≤ (i 0).val ∧ (i 0).val < win0_7.index t (0 : Fin 3) * 1 + 1
    rw [e0]; omega
  | ⟨1, _⟩ =>
    show win0_7.index t (1 : Fin 3) * 512 ≤ (i 1).val ∧ (i 1).val < win0_7.index t (1 : Fin 3) * 512 + 512
    rw [e1]; omega
  | ⟨2, _⟩ =>
    show win0_7.index t (2 : Fin 3) * 1024 ≤ (i 2).val ∧ (i 2).val < win0_7.index t (2 : Fin 3) * 1024 + 1024
    rw [e2]; omega

/-- The result array after the run is the specification of the argument arrays. -/
theorem final (hfin : AllReal m) (c : Dev nD) : (dats m 0 c).arrAt 7 cfg0.N = Attn.G (aX m c) (aWq m c) (aBq m c) (aWk m c) (aBk m c) (aWv m c) (aBv m c) :=
  (dats m 0 c).arrAt_eq_of_cover 7 (Attn.G (aX m c) (aWq m c) (aBq m c) (aWk m c) (aBk m c) (aWv m c) (aBv m c)) (fun t _ => flushed_eq m hfin c t) cover

/-- The run, read: the result array at the specification, the arguments unchanged. -/
theorem run (hfin : AllReal m) : θ_run defs (onTc (τ := τ) (main (F := Ideal))) ⟨m, fun _ => 0, ρ⟩ fun r => ∀ c : Dev nD,
      r.2.mem ((c : Thread nD τ).loc main_v7) = Attn.G (aX m c) (aWq m c) (aBq m c) (aWk m c) (aBk m c) (aWv m c) (aBv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m hfin c), (h c).2⟩) (Value.run_blocks m ρ)

end Cert.KernelIdeal.AttnValue

end
-- ==== Proof.RefValue.lean ====
/-
  The reference program's result, read entry by entry, is the attention specification.

  The reference computes the three projections `x Wᵀ + bias` (a contraction over the feature axis and a broadcast
  bias), the scores `(q · kᵀ) * (1/32)` batch by batch, the row maximum (taken from `-∞`, then once more against
  `-∞`), the exponentials of the differences, their sum from `0`, the quotient, and the product with the values.
  Each stage read at coordinates is the corresponding piece of `Attn.refRow`; the index each stage reads its operand
  at is the evident one (the generated index functions are the coordinate constructors, coordinate by coordinate).
-/
import proofs.«114856_j16363825398359_2_alg».proof.Proof.Gen.ReferenceIdeal.Read
import proofs.«114856_j16363825398359_2_alg».proof.Proof.AttnRow
import proofs.«114856_j16363825398359_2_alg».proof.Proof.LibRowMax

open scoped BigOperators

noncomputable section

namespace Cert.ReferenceIdeal.RefValue

open Cert.ReferenceIdeal Cert.ReferenceIdeal.Read Idealize.ShloMosaic Idealize.ShloMosaic.ValueIdx

variable (x0 : (⟨S4x2048x1024, .f32⟩ : BufTy).Contents (Elt Ideal)) (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal))

/-- The query projection. -/
theorem q_apply (b : Fin 4) (r : Fin 2048) (e : Fin 1024) :
    val_main_v3 (F := Ideal) x0 x1 x2 (ix3 b r e) = Attn.proj x0 x1 x2 b r e := by
  rw [val_main_v3_apply, val_main_v0_apply, val_main_v2_apply, val_main_v1_apply]
  have h1 : ∀ k : Fin 1024, lidx_main_v0 (ix3 b r e) k = ix3 b r k := fun k => funext fun a => Fin.ext (by match a with | ⟨0, _⟩ => rfl | ⟨1, _⟩ => rfl | ⟨2, _⟩ => rfl)
  have h2 : ∀ k : Fin 1024, ridx_main_v0 (ix3 b r e) k = ix2 e k := fun k => funext fun a => Fin.ext (by match a with | ⟨0, _⟩ => rfl | ⟨1, _⟩ => rfl)
  have h3 : idx_main_v1 (idx_main_v2 (ix3 b r e)) = ix1 e := funext fun a => Fin.ext (by match a with | ⟨0, _⟩ => rfl)
  simp only [h1, h2, h3]
  rfl

/-- The key projection. -/
theorem k_apply (b : Fin 4) (k : Fin 2048) (e : Fin 1024) :
    val_main_v7 (F := Ideal) x0 x3 x4 (ix3 b k e) = Attn.proj x0 x3 x4 b k e := by
  rw [val_main_v7_apply, val_main_v4_apply, val_main_v6_apply, val_main_v5_apply]
  have h1 : ∀ d : Fin 1024, lidx_main_v4 (ix3 b k e) d = ix3 b k d := fun d => funext fun a => Fin.ext (by match a with | ⟨0, _⟩ => rfl | ⟨1, _⟩ => rfl | ⟨2, _⟩ => rfl)
  have h2 : ∀ d : Fin 1024, ridx_main_v4 (ix3 b k e) d = ix2 e d := fun d => funext fun a => Fin.ext (by match a with | ⟨0, _⟩ => rfl | ⟨1, _⟩ => rfl)
  have h3 : idx_main_v5 (idx_main_v6 (ix3 b k e)) = ix1 e := funext fun a => Fin.ext (by match a with | ⟨0, _⟩ => rfl)
  simp only [h1, h2, h3]
  rfl

/-- The value projection. -/
theorem v_apply (b : Fin 4) (k : Fin 2048) (o : Fin 1024) :
    val_main_v11 (F := Ideal) x0 x5 x6 (ix3 b k o) = Attn.proj x0 x5 x6 b k o := by
  rw [val_main_v11_apply, val_main_v8_apply, val_main_v10_apply, val_main_v9_apply]
  have h1 : ∀ d : Fin 1024, lidx_main_v8 (ix3 b k o) d = ix3 b k d := fun d => funext fun a => Fin.ext (by match a with | ⟨0, _⟩ => rfl | ⟨1, _⟩ => rfl | ⟨2, _⟩ => rfl)
  have h2 : ∀ d : Fin 1024, ridx_main_v8 (ix3 b k o) d = ix2 o d := fun d => funext fun a => Fin.ext (by match a with | ⟨0, _⟩ => rfl | ⟨1, _⟩ => rfl)
  have h3 : idx_main_v9 (idx_main_v10 (ix3 b k o)) = ix1 o := funext fun a => Fin.ext (by match a with | ⟨0, _⟩ => rfl)
  simp only [h1, h2, h3]
  rfl

/-- The scaled score of query `(b, r)` against key `k`. -/
theorem score_apply (b : Fin 4) (r k : Fin 2048) :
    val_main_v14 (F := Ideal) x0 x1 x2 x3 x4 (ix3 b r k)
      = Attn.rScore (fun e : Fin 1024 => Attn.proj x0 x1 x2 b r e) (fun (k' : Fin 2048) (e : Fin 1024) => Attn.proj x0 x3 x4 b k' e) k := by
  rw [val_main_v14_apply, val_main_v12_apply, val_main_v13_apply, val_main_cst_apply]
  have h1 : ∀ e : Fin 1024, lidx_main_v12 (ix3 b r k) e = ix3 b r e := fun e => funext fun a => Fin.ext (by match a with | ⟨0, _⟩ => rfl | ⟨1, _⟩ => rfl | ⟨2, _⟩ => rfl)
  have h2 : ∀ e : Fin 1024, ridx_main_v12 (ix3 b r k) e = ix3 b k e := fun e => funext fun a => Fin.ext (by match a with | ⟨0, _⟩ => rfl | ⟨1, _⟩ => rfl | ⟨2, _⟩ => rfl)
  simp only [h1, h2, q_apply, k_apply]
  rfl

/-- The row maximum: the fold from `-∞`, then once more against `-∞`. -/
theorem max_apply (b : Fin 4) (r : Fin 2048) :
    val_main_v17 (F := Ideal) x0 x1 x2 x3 x4 (ix2 b r)
      = max (Ideal.ofBits .f32 0xFF800000#32) ((Finset.univ : Finset (Fin 2048)).fold max (Ideal.ofBits .f32 0xFF800000#32)
          (fun k => val_main_v14 (F := Ideal) x0 x1 x2 x3 x4 (ix3 b r k))) := by
  rw [val_main_v17_apply, val_main_v16_apply, val_main_cst_1_apply]
  unfold val_main_v15
  exact congrArg (max (Ideal.ofBits .f32 0xFF800000#32))
    (Cert.Lib.RowMax.hostReduce_maximumf_abc_ab_apply (a := 4) (b := 2048) (c := 2048)
      (val_main_v14 (F := Ideal) x0 x1 x2 x3 x4) (val_main_cst_0 (F := Ideal)) _ (by decide) _ b r)

/-- The exponential of a score less its row's maximum. -/
theorem exp_apply (b : Fin 4) (r k : Fin 2048) :
    val_main_v21 (F := Ideal) x0 x1 x2 x3 x4 (ix3 b r k)
      = Ideal.exp (val_main_v14 (F := Ideal) x0 x1 x2 x3 x4 (ix3 b r k) - val_main_v17 (F := Ideal) x0 x1 x2 x3 x4 (ix2 b r)) := by
  rw [val_main_v21_apply, val_main_v20_apply, val_main_v19_apply, val_main_v18_apply]
  have h : idx_main_v18 (idx_main_v19 (ix3 b r k)) = ix2 b r := funext fun a => Fin.ext (by match a with | ⟨0, _⟩ => rfl | ⟨1, _⟩ => rfl)
  rw [h]
  rfl

/-- The normaliser: the exponentials of a row added to `0`. -/
theorem sum_apply (b : Fin 4) (r : Fin 2048) :
    val_main_v22 (F := Ideal) x0 x1 x2 x3 x4 (ix2 b r)
      = Ideal.ofBits .f32 0x00000000#32 + ∑ k : Fin 2048, val_main_v21 (F := Ideal) x0 x1 x2 x3 x4 (ix3 b r k) := by
  rw [val_main_v22_apply]
  have h : ∀ k : Fin 2048, idx_main_v22 (ix2 b r) k = ix3 b r k := fun k => funext fun a => Fin.ext (by match a with | ⟨0, _⟩ => rfl | ⟨1, _⟩ => rfl | ⟨2, _⟩ => rfl)
  simp only [h]
  rfl

/-- The weight of key `k` for query `(b, r)`. -/
theorem div_apply (b : Fin 4) (r k : Fin 2048) :
    val_main_v25 (F := Ideal) x0 x1 x2 x3 x4 (ix3 b r k)
      = Ideal.div (val_main_v21 (F := Ideal) x0 x1 x2 x3 x4 (ix3 b r k)) (val_main_v22 (F := Ideal) x0 x1 x2 x3 x4 (ix2 b r)) := by
  rw [val_main_v25_apply, val_main_v24_apply, val_main_v23_apply]
  have h : idx_main_v23 (idx_main_v24 (ix3 b r k)) = ix2 b r := funext fun a => Fin.ext (by match a with | ⟨0, _⟩ => rfl | ⟨1, _⟩ => rfl)
  rw [h]
  rfl

/-- The reference's result is the specification. -/
theorem ref_eq : val_main_v26 (F := Ideal) x0 x1 x2 x3 x4 x5 x6 = Attn.G x0 x1 x2 x3 x4 x5 x6 := by
  funext i
  obtain ⟨b, r, o, rfl⟩ : ∃ (b : Fin 4) (r : Fin 2048) (o : Fin 1024), i = ix3 b r o := ⟨i 0, i 1, i 2, eq_ix3 i⟩
  rw [val_main_v26_apply, Attn.G_ix3]
  unfold Attn.attn Attn.refRow Attn.softmaxDiv
  have h1 : ∀ k : Fin 2048, lidx_main_v26 (ix3 b r o) k = ix3 b r k := fun k => funext fun a => Fin.ext (by match a with | ⟨0, _⟩ => rfl | ⟨1, _⟩ => rfl | ⟨2, _⟩ => rfl)
  have h2 : ∀ k : Fin 2048, ridx_main_v26 (ix3 b r o) k = ix3 b k o := fun k => funext fun a => Fin.ext (by match a with | ⟨0, _⟩ => rfl | ⟨1, _⟩ => rfl | ⟨2, _⟩ => rfl)
  simp only [h1, h2, div_apply, exp_apply, sum_apply, max_apply, score_apply, v_apply]

end Cert.ReferenceIdeal.RefValue

end
-- ==== Proof.Finite.lean ====
/-
  The precondition read as a fact about entries: every entry of every argument array is a real number.

  The precondition is the conjunction, over the seven argument arrays, of "every entry `x` satisfies
  `|x| < +∞`" — a comparison per entry, reduced by `and` over the whole array, the seven results joined by `and`.
  Over the extended reals `|x| = max x (-x)`, which is below `+∞` exactly when `x` is neither infinity.
-/
import proofs.«114856_j16363825398359_2_alg».proof.Pre_finite_inputs
import proofs.«114856_j16363825398359_2_alg».proof.Proof.AttnRow
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic

variable [Cert.Pre_finite_inputs.Facts]

instance : Subsingleton S_.Idx := ⟨fun a b => funext fun d => d.elim0⟩

/-- An extended real whose absolute value is below `+∞` is a real. -/
theorem isReal_of_abs_lt (x : EReal)
    (h : Ideal.cmp .olt (max x (-x)) (Ideal.ofBits .f32 0x7F800000#32) = 1#1) : Attn.IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One entry's comparison, as the precondition spells it. -/
theorem isReal_of_entry {s : Shape} (a : FVec Ideal s .f32) (hb : S_.BroadcastsInDim s (![] : Fin 0 → Fin s.rank))
    (i : s.Idx)
    (h : cmpf .olt (Host.absf a) (broadcastInDim s ![] hb (constant (F := Ideal) S_ .f32 0x7F800000#32)) i = 1#1) :
    Attn.IsReal (a i) :=
  isReal_of_abs_lt (a i) h

/-- Every entry of every argument array is a real, when the precondition holds of them. -/
theorem all_real (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32) (h : fn (F := Ideal) a0 a1 a2 a3 a4 a5 a6 = fun _ => 1#1) :
    (∀ i, Attn.IsReal (a0 i)) ∧ (∀ i, Attn.IsReal (a1 i)) ∧ (∀ i, Attn.IsReal (a2 i)) ∧ (∀ i, Attn.IsReal (a3 i))
      ∧ (∀ i, Attn.IsReal (a4 i)) ∧ (∀ i, Attn.IsReal (a5 i)) ∧ (∀ i, Attn.IsReal (a6 i)) := by
  have h0 := congrFun h ValueIdx.ix0
  dsimp only [fn, fn_part1] at h0
  simp only [andi, IntOp.andi_eq_one] at h0
  obtain ⟨⟨⟨⟨⟨⟨e0, e1⟩, e2⟩, e3⟩, e4⟩, e5⟩, e6⟩ := h0
  exact ⟨fun i => isReal_of_entry a0 _ i (Host.reduce_andi_all _ _ _ _ _ e0 i),
    fun i => isReal_of_entry a1 _ i (Host.reduce_andi_all _ _ _ _ _ e1 i),
    fun i => isReal_of_entry a2 _ i (Host.reduce_andi_all _ _ _ _ _ e2 i),
    fun i => isReal_of_entry a3 _ i (Host.reduce_andi_all _ _ _ _ _ e3 i),
    fun i => isReal_of_entry a4 _ i (Host.reduce_andi_all _ _ _ _ _ e4 i),
    fun i => isReal_of_entry a5 _ i (Host.reduce_andi_all _ _ _ _ _ e5 i),
    fun i => isReal_of_entry a6 _ i (Host.reduce_andi_all _ _ _ _ _ e6 i)⟩

end Cert.Pre_finite_inputs.Finite

end
-- ==== Proof.lean ====
/- Scaled dot-product attention with the three projections fused in: a kernel that, batch by batch, fills two scratch
   buffers with the key and value projections at the batch's first query tile and reuses them at the other three,
   against the plain reference (three projections, scores scaled by 1/32, a softmax along the keys, the product with
   the values).

   Over the extended reals a change of float format is the identity and a matrix product is the sum over the
   contracted axis, so both programs compute, at `(b, r, o)`, one attention row (Proof/AttnRow.lean).  They differ in
   two places: the kernel scales the query before the score contraction where the reference scales the contracted
   score — equal because multiplying by the nonnegative real `1/32` is additive on the extended reals —, and the
   kernel multiplies each exponential by the reciprocal of the normaliser where the reference divides by it — equal
   off a zero normaliser, and the normaliser is a sum of exponentials of real numbers when the inputs are finite
   (Proof/Finite.lean reads the precondition as that fact).

   The kernel's result array is read off the run of its sixteen grid points (Proof/KernelValue.lean, over the
   case values of Proof/Pieces.lean, the block reads of Proof/Blocks.lean and the payloads at coordinates of
   Proof/Payloads.lean and Proof/Rows.lean); the reference's result is read stage by stage (Proof/RefValue.lean).
   The ideal pass rewrote nothing, so the kernel's idealization claim is trivial. -/
import proofs.«114856_j16363825398359_2_alg».proof.Defs
import proofs.«114856_j16363825398359_2_alg».proof.Proof.Gen.Kernel
import proofs.«114856_j16363825398359_2_alg».proof.Proof.Gen.Kernel.Skeleton
import proofs.«114856_j16363825398359_2_alg».proof.Proof.Gen.Kernel.Launch
import proofs.«114856_j16363825398359_2_alg».proof.Proof.Gen.Kernel.Points
import proofs.«114856_j16363825398359_2_alg».proof.Proof.Gen.Kernel.Frame
import proofs.«114856_j16363825398359_2_alg».proof.Proof.Gen.KernelIdeal
import proofs.«114856_j16363825398359_2_alg».proof.Proof.Gen.KernelIdeal.Skeleton
import proofs.«114856_j16363825398359_2_alg».proof.Proof.Gen.KernelIdeal.Launch
import proofs.«114856_j16363825398359_2_alg».proof.Proof.Gen.KernelIdeal.Points
import proofs.«114856_j16363825398359_2_alg».proof.Proof.Gen.KernelIdeal.Frame
import proofs.«114856_j16363825398359_2_alg».proof.Proof.Gen.ReferenceIdeal
import proofs.«114856_j16363825398359_2_alg».proof.Proof.Gen.KernelIdeal.Value
import proofs.«114856_j16363825398359_2_alg».proof.Proof.Gen.ReferenceIdeal.Run
import proofs.«114856_j16363825398359_2_alg».proof.Proof.Gen.ReferenceIdeal.Read
import proofs.«114856_j16363825398359_2_alg».proof.Proof.Gen.Pre_finite_inputs
import proofs.«114856_j16363825398359_2_alg».proof.Proof.KernelValue
import proofs.«114856_j16363825398359_2_alg».proof.Proof.RefValue
import proofs.«114856_j16363825398359_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Under finite inputs the precondition gives real entries, the kernel's result array ends at the attention
    specification of its arguments, and so does the reference's, of arguments that agree. -/
theorem algebraic : Cert.algebraic_KernelIdeal_ReferenceIdeal := by
  intro m ρ m' ρ' hpre hagree
  have hfin : Cert.KernelIdeal.AttnValue.AllReal m := fun c =>
    Cert.Pre_finite_inputs.Finite.all_real _ _ _ _ _ _ _ (hpre c)
  refine ⟨fun c => Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.AttnValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.ref_eq, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
